-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn {F : FTy → Type} [FloatOps F] (main_arg0 : FVec F S16777216 .f32) (main_arg1 : FVec F S16777216 .f32) (main_arg2 : FVec F S16777216 .f32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_v4 : FVec F S16777216 .f32 := Host.absf main_arg1
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  let main_v9 : FVec F S16777216 .f32 := Host.absf main_arg2
  let main_cst_2 : FVec F S_ .f32 := constant S_ .f32 0x7F800000#32
  let main_v10 : FVec F S16777216 .f32 := broadcastInDim S16777216 ![] bcast_S_S16777216 main_cst_2
  let main_v11 : IVec S16777216 1 := cmpf .olt main_v9 main_v10
  let main_c_3 : IVec S_ 1 := constantI S_ 1 1#1
  let main_v12 : IVec S_ 1 := (fun x v => Host.reduce IntOp.andi x v reducesTo_S16777216_S_d0 h_S_) main_v11 main_c_3
  let main_v13 : IVec S_ 1 := andi main_v8 main_v12
  main_v13
-- ==== Kernel.lean ====
abbrev S16777216 : Shape := ⟨1, ![16777216]⟩
abbrev S131072x128 : Shape := ⟨2, ![131072, 128]⟩
abbrev S8192x128 : Shape := ⟨2, ![8192, 128]⟩

abbrev nBuf : Space → Nat
  | .hbm => 12
  | .vmem => 12
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S16777216, .f32⟩
  | .hbm, ⟨3, _⟩ => ⟨S131072x128, .f32⟩
  | .hbm, ⟨4, _⟩ => ⟨S131072x128, .f32⟩
  | .hbm, ⟨5, _⟩ => ⟨S131072x128, .f32⟩
  | .hbm, ⟨6, _⟩ => ⟨S131072x128, .f32⟩
  | .hbm, ⟨7, _⟩ => ⟨S131072x128, .f32⟩
  | .hbm, ⟨8, _⟩ => ⟨S131072x128, .f32⟩
  | .hbm, ⟨9, _⟩ => ⟨S16777216, .f32⟩
  | .hbm, ⟨10, _⟩ => ⟨S16777216, .f32⟩
  | .hbm, ⟨11, _⟩ => ⟨S16777216, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S8192x128, .f32⟩
  | .local _ .vmem, ⟨7, _⟩ => ⟨S8192x128, .f32⟩
  | .local _ .vmem, ⟨8, _⟩ => ⟨S8192x128, .f32⟩
  | .local _ .vmem, ⟨9, _⟩ => ⟨S8192x128, .f32⟩
  | .local _ .vmem, ⟨10, _⟩ => ⟨S8192x128, .f32⟩
  | .local _ .vmem, ⟨11, _⟩ => ⟨S8192x128, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16777216_S131072x128 : S16777216.ShapeCasts S131072x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S131072x128_S16777216 : S131072x128.ShapeCasts S16777216
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S131072x128.size a
  hwx0_0 : ∀ i : grid0.Coords, EltTy.bits .f32 = 32 ∨ (Rect.block (s := S131072x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S131072x128.size a
  hwx0_1 : ∀ i : grid0.Coords, EltTy.bits .f32 = 32 ∨ (Rect.block (s := S131072x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S131072x128.size a
  hwx0_2 : ∀ i : grid0.Coords, EltTy.bits .f32 = 32 ∨ (Rect.block (s := S131072x128) S8192x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S131072x128.size a
  hwx0_3 : ∀ i : grid0.Coords, EltTy.bits .f32 = 32 ∨ (Rect.block (s := S131072x128) S8192x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192x128.size a ≤ S131072x128.size a
  hwx0_4 : ∀ i : grid0.Coords, EltTy.bits .f32 = 32 ∨ (Rect.block (s := S131072x128) S8192x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x128.size a ≤ S131072x128.size a
  hwx0_5 : ∀ i : grid0.Coords, EltTy.bits .f32 = 32 ∨ (Rect.block (s := S131072x128) S8192x128.size (cc0_transform_5 i) (hinb0_5 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8192x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S8192x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S8192x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_2) S8192x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16777216 : Shape := ⟨1, ![16777216]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S16777216, .f32⟩
  | .hbm, ⟨3, _⟩ => ⟨S_, .f32⟩
  | .hbm, ⟨4, _⟩ => ⟨S16777216, .f32⟩
  | .hbm, ⟨5, _⟩ => ⟨S16777216, .i1⟩
  | .hbm, ⟨6, _⟩ => ⟨S_, .f32⟩
  | .hbm, ⟨7, _⟩ => ⟨S16777216, .f32⟩
  | .hbm, ⟨8, _⟩ => ⟨S16777216, .i1⟩
  | .hbm, ⟨9, _⟩ => ⟨S16777216, .i1⟩
  | .hbm, ⟨10, _⟩ => ⟨S_, .f32⟩
  | .hbm, ⟨11, _⟩ => ⟨S16777216, .f32⟩
  | .hbm, ⟨12, _⟩ => ⟨S16777216, .i1⟩
  | .hbm, ⟨13, _⟩ => ⟨S16777216, .f32⟩
  | .hbm, ⟨14, _⟩ => ⟨S_, .f32⟩
  | .hbm, ⟨15, _⟩ => ⟨S16777216, .f32⟩
  | .hbm, ⟨16, _⟩ => ⟨S16777216, .f32⟩
  | .hbm, ⟨17, _⟩ => ⟨S16777216, .f32⟩
  | .hbm, ⟨18, _⟩ => ⟨S_, .f32⟩
  | .hbm, ⟨19, _⟩ => ⟨S_, .f32⟩
  | .hbm, ⟨20, _⟩ => ⟨S16777216, .f32⟩
  | .hbm, ⟨21, _⟩ => ⟨S16777216, .f32⟩
  | .hbm, ⟨22, _⟩ => ⟨S16777216, .f32⟩
  | .hbm, ⟨23, _⟩ => ⟨S16777216, .f32⟩
  | .hbm, ⟨24, _⟩ => ⟨S16777216, .f32⟩
  | .hbm, ⟨25, _⟩ => ⟨S16777216, .f32⟩
  | .hbm, ⟨26, _⟩ => ⟨S16777216, .f32⟩
  | .hbm, ⟨27, _⟩ => ⟨S16777216, .f32⟩
  | .hbm, ⟨28, _⟩ => ⟨S_, .f32⟩
  | .hbm, ⟨29, _⟩ => ⟨S_, .f32⟩
  | .hbm, ⟨30, _⟩ => ⟨S16777216, .f32⟩
  | .hbm, ⟨31, _⟩ => ⟨S16777216, .f32⟩
  | .hbm, ⟨32, _⟩ => ⟨S16777216, .f32⟩
  | .hbm, ⟨33, _⟩ => ⟨S16777216, .f32⟩
  | .hbm, ⟨34, _⟩ => ⟨S16777216, .i1⟩
  | .hbm, ⟨35, _⟩ => ⟨S_, .f32⟩
  | .hbm, ⟨36, _⟩ => ⟨S_, .f32⟩
  | .hbm, ⟨37, _⟩ => ⟨S16777216, .f32⟩
  | .hbm, ⟨38, _⟩ => ⟨S16777216, .f32⟩
  | .hbm, ⟨39, _⟩ => ⟨S16777216, .f32⟩
  | .hbm, ⟨40, _⟩ => ⟨S16777216, .f32⟩
  | .hbm, ⟨41, _⟩ => ⟨S_, .f32⟩
  | .hbm, ⟨42, _⟩ => ⟨S_, .f32⟩
  | .hbm, ⟨43, _⟩ => ⟨S16777216, .f32⟩
  | .hbm, ⟨44, _⟩ => ⟨S16777216, .f32⟩
  | .hbm, ⟨45, _⟩ => ⟨S16777216, .f32⟩
  | .hbm, ⟨46, _⟩ => ⟨S16777216, .f32⟩
  | .hbm, ⟨47, _⟩ => ⟨S16777216, .f32⟩
  | .hbm, ⟨48, _⟩ => ⟨S_, .f32⟩
  | .hbm, ⟨49, _⟩ => ⟨S16777216, .f32⟩
  | .hbm, ⟨50, _⟩ => ⟨S16777216, .f32⟩
  | .hbm, ⟨51, _⟩ => ⟨S16777216, .f32⟩
  | .hbm, ⟨52, _⟩ => ⟨S16777216, .f32⟩
  | .hbm, ⟨53, _⟩ => ⟨S16777216, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_cst_4 : Ref sig .tc := ⟨.hbm, 19, rfl⟩
abbrev main_call1_v0 : Ref sig .tc := ⟨.hbm, 20, rfl⟩
abbrev main_call1_v1 : Ref sig .tc := ⟨.hbm, 21, rfl⟩
abbrev main_v10 : Ref sig .tc := ⟨.hbm, 22, rfl⟩
abbrev main_call2_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_5 : Ref sig .tc := ⟨.hbm, 28, rfl⟩
abbrev main_call3_v0 : Ref sig .tc := ⟨.hbm, 29, rfl⟩
abbrev main_call3_v1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_6 : Ref sig .tc := ⟨.hbm, 35, rfl⟩
abbrev main_cst_7 : Ref sig .tc := ⟨.hbm, 36, rfl⟩
abbrev main_call4_v0 : Ref sig .tc := ⟨.hbm, 37, rfl⟩
abbrev main_call4_v1 : Ref sig .tc := ⟨.hbm, 38, rfl⟩
abbrev main_v19 : Ref sig .tc := ⟨.hbm, 39, rfl⟩
abbrev main_v20 : Ref sig .tc := ⟨.hbm, 40, rfl⟩
abbrev main_cst_8 : Ref sig .tc := ⟨.hbm, 41, rfl⟩
abbrev main_cst_9 : Ref sig .tc := ⟨.hbm, 42, rfl⟩
abbrev main_call5_v0 : Ref sig .tc := ⟨.hbm, 43, rfl⟩
abbrev main_call5_v1 : Ref sig .tc := ⟨.hbm, 44, rfl⟩
abbrev main_v21 : Ref sig .tc := ⟨.hbm, 45, rfl⟩
abbrev main_call6_v0 : Ref sig .tc := ⟨.hbm, 46, rfl⟩
abbrev main_v22 : Ref sig .tc := ⟨.hbm, 47, rfl⟩
abbrev main_call7_cst : Ref sig .tc := ⟨.hbm, 48, rfl⟩
abbrev main_call7_v0 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)

variable [Facts₀]

class Facts : Prop extends Facts₀ where

variable [Facts]
-- ==== Proof.Relax.lean ====
/-
  The three results of the interval relaxation of a rectifier, as functions of single entries.

  For an activation `x` and a pre-activation interval `[l, h]` (`l` the lower bound, `h` the upper bound):
    * the activation's result is `max x 0`;
    * the interval is CROSSING when `l < 0` and `0 < h`, and INACTIVE when `h ≤ 0`;
    * the upper bound's result is `s · h + b` where, when crossing, `s = h / (h − l)` is the chord's slope and
      `b = (−(l · h)) / (h − l)` its intercept, and otherwise `s` is `0` (inactive) or `1` and `b = 0`; off the crossing case
      the divisor is replaced by `1`;
    * the lower bound's result is `λ · l` where, when crossing, `λ = 0` if `l · l > h · h` and `1` otherwise, and otherwise
      `λ` is `0` (inactive) or `1`.
  Every entry of a result depends on the same entry of the arguments and on nothing else, so each result array is
  such a function applied entry by entry, whatever the array's shape.

  The intercept's numerator is spelt in two ways: as the difference `0 − l · h` divided by the vector unit's quotient, and
  as the negation `−(l · h)` divided by the host's quotient. On the extended reals the two quotients are one function and
  `0 − a = −a` for EVERY `a`, the infinite ones included: `upperHost_eq`, the one law this certificate uses.
-/
import Idealize.ShloMosaic.PureOps.Ideal
import Idealize.ShloMosaic.PureOps.Ideal.Laws
import Idealize.ShloMosaic.PureOps.Vector

noncomputable section

namespace Cert.Relax

open Idealize.ShloMosaic

variable {F : FTy → Type} [FloatOps F]

/-! ## One entry -/

/-- The number `0`, as the single-precision word of `+0.0`. -/
def zero : F .f32 := FloatOps.ofBits .f32 0x00000000#32
/-- The number `1`, as the single-precision word of `1.0`. -/
def one : F .f32 := FloatOps.ofBits .f32 0x3F800000#32

/-- The interval `[l, h]` crosses zero: `l < 0` and `0 < h`. -/
def crossing (l h : F .f32) : BitVec 1 := IntOp.andi (FloatOps.cmpf .olt l zero) (FloatOps.cmpf .ogt h zero)
/-- The interval lies at or below zero: `h ≤ 0`. -/
def inactive (h : F .f32) : BitVec 1 := FloatOps.cmpf .ole h zero
/-- The slope off the crossing case: `0` for an inactive interval, `1` for an active one. -/
def plainSlope (h : F .f32) : F .f32 := Scalar.select (inactive h) zero one
/-- The chord's divisor `h − l`, replaced by `1` off the crossing case. -/
def width (l h : F .f32) : F .f32 := Scalar.select (crossing l h) (FloatOps.subf h l) one
/-- The lower bound's slope in the crossing case: `0` when `l · l > h · h`, else `1`. -/
def lowerSlope (l h : F .f32) : F .f32 :=
  Scalar.select (FloatOps.cmpf .ogt (FloatOps.mulf l l) (FloatOps.mulf h h)) zero one

/-- The activation's result: `max x 0`. -/
def act (x : F .f32) : F .f32 := FloatOps.maximumf x zero

/-- The lower bound's result: `λ · l`. -/
def lower (l h : F .f32) : F .f32 :=
  FloatOps.mulf (Scalar.select (crossing l h) (lowerSlope l h) (plainSlope h)) l

/-- The upper bound's result `s · h + b`, the intercept's numerator spelt `0 − l · h`. -/
def upper (l h : F .f32) : F .f32 :=
  FloatOps.addf (FloatOps.mulf (Scalar.select (crossing l h) (FloatOps.divf h (width l h)) (plainSlope h)) h)
    (Scalar.select (crossing l h) (FloatOps.divf (FloatOps.subf zero (FloatOps.mulf l h)) (width l h)) zero)

/-- The upper bound's result `s · h + b`, the intercept's numerator spelt `−(l · h)` and both quotients the host's. -/
def upperHost (l h : F .f32) : F .f32 :=
  FloatOps.addf (FloatOps.mulf (Scalar.select (crossing l h) (FloatOps.hostDivf h (width l h)) (plainSlope h)) h)
    (Scalar.select (crossing l h) (FloatOps.hostDivf (FloatOps.hostNegf (FloatOps.mulf l h)) (width l h)) zero)

/-- On the extended reals the two spellings of the upper bound agree: the quotients are one function, and
    `0 − a = −a` for every extended real `a`. -/
theorem upperHost_eq (l h : Ideal .f32) : upperHost l h = upper l h := by
  unfold upperHost upper
  simp only [Ideal.hostDivf_def, Ideal.hostNegf_def, Ideal.divf_def, Ideal.subf_def, Ideal.negf_def, zero,
    Ideal.ofBits_def, Ideal.ofBits_zero_f32, zero_sub]

/-! ## Whole arrays, of any shape: the entry's function at every index -/

/-- The activation's result array. -/
def actArr {s : Shape} (x : FVec F s .f32) : FVec F s .f32 := fun i => act (x i)
/-- The lower bound's result array. -/
def lowerArr {s : Shape} (l h : FVec F s .f32) : FVec F s .f32 := fun i => lower (l i) (h i)
/-- The upper bound's result array. -/
def upperArr {s : Shape} (l h : FVec F s .f32) : FVec F s .f32 := fun i => upper (l i) (h i)
/-- The upper bound's result array in the host's spelling. -/
def upperHostArr {s : Shape} (l h : FVec F s .f32) : FVec F s .f32 := fun i => upperHost (l i) (h i)

/-- The two spellings of the upper bound's array agree on the extended reals. -/
theorem upperHostArr_eq {s : Shape} (l h : FVec Ideal s .f32) : upperHostArr l h = upperArr l h :=
  funext fun i => upperHost_eq (l i) (h i)

/-- Re-laying the arguments in another shape with the same row-major order and then taking the result is re-laying the
    result: the result at an index reads the arguments at that index only. -/
theorem actArr_shapeCast {s t : Shape} (x : FVec F s .f32) (h : s.ShapeCasts t) :
    actArr (shapeCast t x h) = shapeCast t (actArr x) h := rfl
theorem lowerArr_shapeCast {s t : Shape} (l u : FVec F s .f32) (h : s.ShapeCasts t) :
    lowerArr (shapeCast t l h) (shapeCast t u h) = shapeCast t (lowerArr l u) h := rfl
theorem upperArr_shapeCast {s t : Shape} (l u : FVec F s .f32) (h : s.ShapeCasts t) :
    upperArr (shapeCast t l h) (shapeCast t u h) = shapeCast t (upperArr l u) h := rfl

end Cert.Relax

end
-- ==== Proof.BlockResults.lean ====
/-
  What the kernel body leaves in each output block, read as a function of the three input blocks.

  At a grid point the body loads the whole [8192, 128] blocks of the activation, the lower bound and the upper bound,
  computes entry by entry, and stores three whole blocks. Each stored block is therefore the entry's function
  (`Relax.act`, `Relax.lower`, `Relax.upper`) applied at every index of the block: the loads and the stores go through
  the whole block's rectangle at offset zero, the body's casts keep the shape, and every arithmetic operation, comparison
  and selection acts index by index.
-/
import proofs.«106616_j67104569033048_1_alg».proof.Proof.Gen.KernelIdeal.Frame
import proofs.«106616_j67104569033048_1_alg».proof.Proof.Relax
import Idealize.ShloMosaic.Lib.Pipeline.Value

noncomputable section

namespace Cert.KernelIdeal.Blocks

open Cert.KernelIdeal Cert.KernelIdeal.Gen Idealize.ShloMosaic Idealize.ShloMosaic.TcCoe

variable {F : FTy → Type} [FloatOps F]

/-- The whole block's rectangle starts at the origin. -/
theorem origin : (![0, 0] : Fin 2 → Nat) = fun _ => 0 := funext fun a => by fin_cases a <;> rfl

/-- The first output block holds `max x 0` of the activation's block, entry by entry. -/
theorem act_block (x0 x1 x2 : Vec F S8192x128 .f32) : out0_3 x0 x1 x2 = Relax.actArr x0 := by
  unfold out0_3
  rw [View.canon_unit_zero origin]
  simp only [View.ld_unit_zero (S := S8192x128) origin]
  unfold k0_pay11
  simp only [shapeCast_self]
  rfl

/-- The second output block holds the lower bound's result of the two bounds' blocks, entry by entry. -/
theorem lower_block (x0 x1 x2 : Vec F S8192x128 .f32) : out0_4 x0 x1 x2 = Relax.lowerArr x1 x2 := by
  unfold out0_4
  rw [View.canon_unit_zero origin]
  simp only [View.ld_unit_zero (S := S8192x128) origin]
  unfold k0_pay2 k0_pay10 k0_pay5 k0_pay6 k0_pay3 k0_pay4
  simp only [shapeCast_self]
  rfl

/-- The third output block holds the upper bound's result of the two bounds' blocks, entry by entry. -/
theorem upper_block (x0 x1 x2 : Vec F S8192x128 .f32) : out0_5 x0 x1 x2 = Relax.upperArr x1 x2 := by
  unfold out0_5
  rw [View.canon_unit_zero origin]
  simp only [View.ld_unit_zero (S := S8192x128) origin]
  unfold k0_pay1 k0_pay8 k0_pay9 k0_pay7 k0_pay5 k0_pay6 k0_pay3 k0_pay4
  simp only [shapeCast_self]
  rfl

end Cert.KernelIdeal.Blocks

end
-- ==== Proof.KernelArrays.lean ====
/-
  From blocks to arrays: what the three result arrays hold after the kernel's region, and after the reshapes around it.

  The region works on [131072, 128] arrays: each flat argument of 16777216 entries is re-laid row-major as 131072 rows
  of 128 before the region, and each result is re-laid flat after it. The grid has 16 points; at point `t` every window
  — the three inputs and the three outputs alike — is on block (t, 0), that is rows 8192·t … 8192·t + 8191 and all 128
  columns. So an entry of an output block sits at the same row and column of the array as the entries of the input
  blocks it was computed from, and what point `t` writes back is block `t` of the entry's function applied to the whole
  input arrays. Row `r` lies in the block of point `r / 8192`, so the 16 blocks cover each output array, which therefore
  ends holding that function of the input arrays at every index. Re-laying an array in another shape moves entries
  without changing them and the results read their arguments index by index, so the flat results are the same
  functions of the flat arguments.
-/
import proofs.«106616_j67104569033048_1_alg».proof.Proof.Gen.KernelIdeal.Frame
import proofs.«106616_j67104569033048_1_alg».proof.Proof.Relax
import proofs.«106616_j67104569033048_1_alg».proof.Proof.BlockResults
import Idealize.ShloMosaic.Lib.Pipeline.Value
import Idealize.ShloMosaic.Lib.StableHlo.Run

noncomputable section

namespace Cert.KernelIdeal.Arrays

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Where the blocks sit -/

/-- At point `t` every window is on block (t, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## Input and output blocks sit at the same rows and columns -/

/-- The activation's input block and the first output block sit at the same rows and columns. -/
theorem place_0_3 (t : Fin cfg0.N) (j : S8192x128.Idx) :
    ((cfg0.win 0).blk t).view.emb j = ((cfg0.win 3).blk t).view.emb j := by
  obtain ⟨a0, a1, b0, b1, c0, c1, d0, d1, e0, e1, f0, f1⟩ := block_index t
  funext a; apply Fin.ext
  match a with
  | ⟨0, _⟩ => show win0_0.index t (0 : Fin 2) * 8192 + 1 * (j 0).val = win0_3.index t (0 : Fin 2) * 8192 + 1 * (j 0).val; omega
  | ⟨1, _⟩ => show win0_0.index t (1 : Fin 2) * 128 + 1 * (j 1).val = win0_3.index t (1 : Fin 2) * 128 + 1 * (j 1).val; omega

/-- The lower bound's input block and the second output block sit at the same rows and columns. -/
theorem place_1_4 (t : Fin cfg0.N) (j : S8192x128.Idx) :
    ((cfg0.win 1).blk t).view.emb j = ((cfg0.win 4).blk t).view.emb j := by
  obtain ⟨a0, a1, b0, b1, c0, c1, d0, d1, e0, e1, f0, f1⟩ := block_index t
  funext a; apply Fin.ext
  match a with
  | ⟨0, _⟩ => show win0_1.index t (0 : Fin 2) * 8192 + 1 * (j 0).val = win0_4.index t (0 : Fin 2) * 8192 + 1 * (j 0).val; omega
  | ⟨1, _⟩ => show win0_1.index t (1 : Fin 2) * 128 + 1 * (j 1).val = win0_4.index t (1 : Fin 2) * 128 + 1 * (j 1).val; omega

/-- The upper bound's input block and the second output block sit at the same rows and columns. -/
theorem place_2_4 (t : Fin cfg0.N) (j : S8192x128.Idx) :
    ((cfg0.win 2).blk t).view.emb j = ((cfg0.win 4).blk t).view.emb j := by
  obtain ⟨a0, a1, b0, b1, c0, c1, d0, d1, e0, e1, f0, f1⟩ := block_index t
  funext a; apply Fin.ext
  match a with
  | ⟨0, _⟩ => show win0_2.index t (0 : Fin 2) * 8192 + 1 * (j 0).val = win0_4.index t (0 : Fin 2) * 8192 + 1 * (j 0).val; omega
  | ⟨1, _⟩ => show win0_2.index t (1 : Fin 2) * 128 + 1 * (j 1).val = win0_4.index t (1 : Fin 2) * 128 + 1 * (j 1).val; omega

/-- The lower bound's input block and the third output block sit at the same rows and columns. -/
theorem place_1_5 (t : Fin cfg0.N) (j : S8192x128.Idx) :
    ((cfg0.win 1).blk t).view.emb j = ((cfg0.win 5).blk t).view.emb j := by
  obtain ⟨a0, a1, b0, b1, c0, c1, d0, d1, e0, e1, f0, f1⟩ := block_index t
  funext a; apply Fin.ext
  match a with
  | ⟨0, _⟩ => show win0_1.index t (0 : Fin 2) * 8192 + 1 * (j 0).val = win0_5.index t (0 : Fin 2) * 8192 + 1 * (j 0).val; omega
  | ⟨1, _⟩ => show win0_1.index t (1 : Fin 2) * 128 + 1 * (j 1).val = win0_5.index t (1 : Fin 2) * 128 + 1 * (j 1).val; omega

/-- The upper bound's input block and the third output block sit at the same rows and columns. -/
theorem place_2_5 (t : Fin cfg0.N) (j : S8192x128.Idx) :
    ((cfg0.win 2).blk t).view.emb j = ((cfg0.win 5).blk t).view.emb j := by
  obtain ⟨a0, a1, b0, b1, c0, c1, d0, d1, e0, e1, f0, f1⟩ := block_index t
  funext a; apply Fin.ext
  match a with
  | ⟨0, _⟩ => show win0_2.index t (0 : Fin 2) * 8192 + 1 * (j 0).val = win0_5.index t (0 : Fin 2) * 8192 + 1 * (j 0).val; omega
  | ⟨1, _⟩ => show win0_2.index t (1 : Fin 2) * 128 + 1 * (j 1).val = win0_5.index t (1 : Fin 2) * 128 + 1 * (j 1).val; omega

/-! ## What each point writes back -/

/-- Point `t` writes back, to the first output array, block `t` of `max x 0` of the activation array. -/
theorem act_flushed (c : Dev nD) (t : Fin cfg0.N) :
    (dats m 0 c).flushed 3 t = ((cfg0.win 3).blk t).view.read (Elt F) (Relax.actArr (V m c main_v0)) := by
  show (cfg0.win 3).cut (grid0.coords t) ((dats m 0 c).after 3 t) = _
  rw [after0_3, Blocks.act_block]
  funext j
  show Relax.act (V m c main_v0 (((cfg0.win 0).blk t).view.emb j)) = Relax.act (V m c main_v0 (((cfg0.win 3).blk t).view.emb j))
  rw [place_0_3 t j]

/-- Point `t` writes back, to the second output array, block `t` of the lower bound's result of the two bound arrays. -/
theorem lower_flushed (c : Dev nD) (t : Fin cfg0.N) :
    (dats m 0 c).flushed 4 t = ((cfg0.win 4).blk t).view.read (Elt F) (Relax.lowerArr (V m c main_v1) (V m c main_v2)) := by
  show (cfg0.win 4).cut (grid0.coords t) ((dats m 0 c).after 4 t) = _
  rw [after0_4, Blocks.lower_block]
  funext j
  show Relax.lower (V m c main_v1 (((cfg0.win 1).blk t).view.emb j)) (V m c main_v2 (((cfg0.win 2).blk t).view.emb j))
    = Relax.lower (V m c main_v1 (((cfg0.win 4).blk t).view.emb j)) (V m c main_v2 (((cfg0.win 4).blk t).view.emb j))
  rw [place_1_4 t j, place_2_4 t j]

/-- Point `t` writes back, to the third output array, block `t` of the upper bound's result of the two bound arrays. -/
theorem upper_flushed (c : Dev nD) (t : Fin cfg0.N) :
    (dats m 0 c).flushed 5 t = ((cfg0.win 5).blk t).view.read (Elt F) (Relax.upperArr (V m c main_v1) (V m c main_v2)) := by
  show (cfg0.win 5).cut (grid0.coords t) ((dats m 0 c).after 5 t) = _
  rw [after0_5, Blocks.upper_block]
  funext j
  show Relax.upper (V m c main_v1 (((cfg0.win 1).blk t).view.emb j)) (V m c main_v2 (((cfg0.win 2).blk t).view.emb j))
    = Relax.upper (V m c main_v1 (((cfg0.win 5).blk t).view.emb j)) (V m c main_v2 (((cfg0.win 5).blk t).view.emb j))
  rw [place_1_5 t j, place_2_5 t j]

/-! ## The blocks cover each output array -/

/-- An index of the array is in point `t`'s block of output window 3 iff each coordinate is in the block's range. -/
theorem mem_blk3 (t : Fin cfg0.N) (i : S131072x128.Idx) :
    i ∈ ((cfg0.win 3).blk t).view.set ↔ ∀ a : Fin 2, win0_3.index t a * S8192x128.size a ≤ (i a).val ∧ (i a).val < win0_3.index t a * S8192x128.size a + S8192x128.size a := by
  show i ∈ ((View.whole main_v3_0).slice (win0_3.rect t)).set ↔ _
  rw [View.set_slice_whole, Rect.mem_set_unit]
  exact Iff.rfl

/-- Row `r` of output window 3's array lies in the block of point `r / 8192`: the 16 blocks cover the array. -/
theorem cover3 (i : S131072x128.Idx) :
    ∃ t : Fin cfg0.N, (cfg0.win 3).flush t = true ∧ i ∈ ((cfg0.win 3).blk t).view.set := by
  have hi0 : (i 0).val < 131072 := (i 0).isLt
  have hi1 : (i 1).val < 128 := (i 1).isLt
  have hN : grid0.N = 16 := N_0
  refine ⟨⟨(i 0).val / 8192, by show (i 0).val / 8192 < grid0.N; omega⟩, flush0_3 _, ?_⟩
  obtain ⟨a0, a1, b0, b1, c0, c1, d0, d1, e0, e1, f0, f1⟩ := block_index ⟨(i 0).val / 8192, by show (i 0).val / 8192 < grid0.N; omega⟩
  rw [mem_blk3]
  intro a
  match a with
  | ⟨0, _⟩ =>
    show win0_3.index _ (0 : Fin 2) * 8192 ≤ (i 0).val ∧ (i 0).val < win0_3.index _ (0 : Fin 2) * 8192 + 8192
    rw [d0]; show (i 0).val / 8192 * 8192 ≤ (i 0).val ∧ (i 0).val < (i 0).val / 8192 * 8192 + 8192; omega
  | ⟨1, _⟩ =>
    show win0_3.index _ (1 : Fin 2) * 128 ≤ (i 1).val ∧ (i 1).val < win0_3.index _ (1 : Fin 2) * 128 + 128
    rw [d1]; omega

/-- An index of the array is in point `t`'s block of output window 4 iff each coordinate is in the block's range. -/
theorem mem_blk4 (t : Fin cfg0.N) (i : S131072x128.Idx) :
    i ∈ ((cfg0.win 4).blk t).view.set ↔ ∀ a : Fin 2, win0_4.index t a * S8192x128.size a ≤ (i a).val ∧ (i a).val < win0_4.index t a * S8192x128.size a + S8192x128.size a := by
  show i ∈ ((View.whole main_v3_1).slice (win0_4.rect t)).set ↔ _
  rw [View.set_slice_whole, Rect.mem_set_unit]
  exact Iff.rfl

/-- Row `r` of output window 4's array lies in the block of point `r / 8192`: the 16 blocks cover the array. -/
theorem cover4 (i : S131072x128.Idx) :
    ∃ t : Fin cfg0.N, (cfg0.win 4).flush t = true ∧ i ∈ ((cfg0.win 4).blk t).view.set := by
  have hi0 : (i 0).val < 131072 := (i 0).isLt
  have hi1 : (i 1).val < 128 := (i 1).isLt
  have hN : grid0.N = 16 := N_0
  refine ⟨⟨(i 0).val / 8192, by show (i 0).val / 8192 < grid0.N; omega⟩, flush0_4 _, ?_⟩
  obtain ⟨a0, a1, b0, b1, c0, c1, d0, d1, e0, e1, f0, f1⟩ := block_index ⟨(i 0).val / 8192, by show (i 0).val / 8192 < grid0.N; omega⟩
  rw [mem_blk4]
  intro a
  match a with
  | ⟨0, _⟩ =>
    show win0_4.index _ (0 : Fin 2) * 8192 ≤ (i 0).val ∧ (i 0).val < win0_4.index _ (0 : Fin 2) * 8192 + 8192
    rw [e0]; show (i 0).val / 8192 * 8192 ≤ (i 0).val ∧ (i 0).val < (i 0).val / 8192 * 8192 + 8192; omega
  | ⟨1, _⟩ =>
    show win0_4.index _ (1 : Fin 2) * 128 ≤ (i 1).val ∧ (i 1).val < win0_4.index _ (1 : Fin 2) * 128 + 128
    rw [e1]; omega

/-- An index of the array is in point `t`'s block of output window 5 iff each coordinate is in the block's range. -/
theorem mem_blk5 (t : Fin cfg0.N) (i : S131072x128.Idx) :
    i ∈ ((cfg0.win 5).blk t).view.set ↔ ∀ a : Fin 2, win0_5.index t a * S8192x128.size a ≤ (i a).val ∧ (i a).val < win0_5.index t a * S8192x128.size a + S8192x128.size a := by
  show i ∈ ((View.whole main_v3_2).slice (win0_5.rect t)).set ↔ _
  rw [View.set_slice_whole, Rect.mem_set_unit]
  exact Iff.rfl

/-- Row `r` of output window 5's array lies in the block of point `r / 8192`: the 16 blocks cover the array. -/
theorem cover5 (i : S131072x128.Idx) :
    ∃ t : Fin cfg0.N, (cfg0.win 5).flush t = true ∧ i ∈ ((cfg0.win 5).blk t).view.set := by
  have hi0 : (i 0).val < 131072 := (i 0).isLt
  have hi1 : (i 1).val < 128 := (i 1).isLt
  have hN : grid0.N = 16 := N_0
  refine ⟨⟨(i 0).val / 8192, by show (i 0).val / 8192 < grid0.N; omega⟩, flush0_5 _, ?_⟩
  obtain ⟨a0, a1, b0, b1, c0, c1, d0, d1, e0, e1, f0, f1⟩ := block_index ⟨(i 0).val / 8192, by show (i 0).val / 8192 < grid0.N; omega⟩
  rw [mem_blk5]
  intro a
  match a with
  | ⟨0, _⟩ =>
    show win0_5.index _ (0 : Fin 2) * 8192 ≤ (i 0).val ∧ (i 0).val < win0_5.index _ (0 : Fin 2) * 8192 + 8192
    rw [f0]; show (i 0).val / 8192 * 8192 ≤ (i 0).val ∧ (i 0).val < (i 0).val / 8192 * 8192 + 8192; omega
  | ⟨1, _⟩ =>
    show win0_5.index _ (1 : Fin 2) * 128 ≤ (i 1).val ∧ (i 1).val < win0_5.index _ (1 : Fin 2) * 128 + 128
    rw [f1]; omega

/-! ## The output arrays after the region -/

/-- After the region the first output array holds `max x 0` of the activation array, at every index. -/
theorem act_array (c : Dev nD) : (dats m 0 c).arrAt 3 cfg0.N = Relax.actArr (V m c main_v0) :=
  (dats m 0 c).arrAt_eq_of_cover 3 _ (fun t _ => act_flushed m c t) cover3

/-- After the region the second output array holds the lower bound's result of the two bound arrays. -/
theorem lower_array (c : Dev nD) : (dats m 0 c).arrAt 4 cfg0.N = Relax.lowerArr (V m c main_v1) (V m c main_v2) :=
  (dats m 0 c).arrAt_eq_of_cover 4 _ (fun t _ => lower_flushed m c t) cover4

/-- After the region the third output array holds the upper bound's result of the two bound arrays. -/
theorem upper_array (c : Dev nD) : (dats m 0 c).arrAt 5 cfg0.N = Relax.upperArr (V m c main_v1) (V m c main_v2) :=
  (dats m 0 c).arrAt_eq_of_cover 5 _ (fun t _ => upper_flushed m c t) cover5

/-! ## The reshapes around the region -/

/-- The region finds the activation as the flat argument re-laid as 131072 rows of 128. -/
theorem act_in (c : Dev nD) : (V m c main_v0 : S131072x128.Idx → F .f32)
    = shapeCast S131072x128 (m ((c : Thread nD τ).loc main_arg0) : S16777216.Idx → F .f32) Facts₀.shapeCasts_S16777216_S131072x128 := by
  show StableHlo.after hostOps0 (fun b => m (c, b)) (Proc.devRef .tc main_v0) = _
  after_results
  rfl

/-- The region finds the lower bound as the flat argument re-laid as 131072 rows of 128. -/
theorem lower_in (c : Dev nD) : (V m c main_v1 : S131072x128.Idx → F .f32)
    = shapeCast S131072x128 (m ((c : Thread nD τ).loc main_arg1) : S16777216.Idx → F .f32) Facts₀.shapeCasts_S16777216_S131072x128 := by
  show StableHlo.after hostOps0 (fun b => m (c, b)) (Proc.devRef .tc main_v1) = _
  after_results
  rfl

/-- The region finds the upper bound as the flat argument re-laid as 131072 rows of 128. -/
theorem upper_in (c : Dev nD) : (V m c main_v2 : S131072x128.Idx → F .f32)
    = shapeCast S131072x128 (m ((c : Thread nD τ).loc main_arg2) : S16777216.Idx → F .f32) Facts₀.shapeCasts_S16777216_S131072x128 := by
  show StableHlo.after hostOps0 (fun b => m (c, b)) (Proc.devRef .tc main_v2) = _
  after_results
  rfl

/-- The first result is the first output array re-laid flat. -/
theorem act_tail (c : Dev nD) : (Pipeline.afterTail₀ cfgs (dats m) 0 (V0 m) [hostOps1] c main_v4 : S16777216.Idx → F .f32)
    = shapeCast S16777216 ((dats m 0 c).arrAt 3 cfg0.N : S131072x128.Idx → F .f32) Facts₀.shapeCasts_S131072x128_S16777216 := by
  unfold Pipeline.afterTail₀
  show StableHlo.after hostOps1 _ (Proc.devRef .tc main_v4) = _
  after_results
  exact congrArg (fun A : S131072x128.Idx → F .f32 => shapeCast S16777216 A Facts₀.shapeCasts_S131072x128_S16777216)
    (Pipeline.withArrays_arr spec0 launch0.win.arr_inj c (V0 m c) (fun w => (dats m 0 c).arrAt w cfg0.N) 3)

/-- The second result is the second output array re-laid flat. -/
theorem lower_tail (c : Dev nD) : (Pipeline.afterTail₀ cfgs (dats m) 0 (V0 m) [hostOps1] c main_v5 : S16777216.Idx → F .f32)
    = shapeCast S16777216 ((dats m 0 c).arrAt 4 cfg0.N : S131072x128.Idx → F .f32) Facts₀.shapeCasts_S131072x128_S16777216 := by
  unfold Pipeline.afterTail₀
  show StableHlo.after hostOps1 _ (Proc.devRef .tc main_v5) = _
  after_results
  exact congrArg (fun A : S131072x128.Idx → F .f32 => shapeCast S16777216 A Facts₀.shapeCasts_S131072x128_S16777216)
    (Pipeline.withArrays_arr spec0 launch0.win.arr_inj c (V0 m c) (fun w => (dats m 0 c).arrAt w cfg0.N) 4)

/-- The third result is the third output array re-laid flat. -/
theorem upper_tail (c : Dev nD) : (Pipeline.afterTail₀ cfgs (dats m) 0 (V0 m) [hostOps1] c main_v6 : S16777216.Idx → F .f32)
    = shapeCast S16777216 ((dats m 0 c).arrAt 5 cfg0.N : S131072x128.Idx → F .f32) Facts₀.shapeCasts_S131072x128_S16777216 := by
  unfold Pipeline.afterTail₀
  show StableHlo.after hostOps1 _ (Proc.devRef .tc main_v6) = _
  after_results
  exact congrArg (fun A : S131072x128.Idx → F .f32 => shapeCast S16777216 A Facts₀.shapeCasts_S131072x128_S16777216)
    (Pipeline.withArrays_arr spec0 launch0.win.arr_inj c (V0 m c) (fun w => (dats m 0 c).arrAt w cfg0.N) 5)

/-! ## The three results as functions of the flat arguments -/

/-- The first result is `max x 0` of the flat activation, entry by entry: re-laid as rows, computed, re-laid flat. The result of
    a re-laid array is the re-laid result (`Relax.actArr_shapeCast`, by unfolding), and re-laying there and back is the
    identity. -/
theorem act_result (c : Dev nD) : (Pipeline.afterTail₀ cfgs (dats m) 0 (V0 m) [hostOps1] c main_v4 : S16777216.Idx → F .f32)
    = Relax.actArr (m ((c : Thread nD τ).loc main_arg0) : S16777216.Idx → F .f32) := by
  rw [act_tail, act_array, act_in]
  exact shapeCast_shapeCast (Relax.actArr (m ((c : Thread nD τ).loc main_arg0) : S16777216.Idx → F .f32))
    Facts₀.shapeCasts_S16777216_S131072x128 Facts₀.shapeCasts_S131072x128_S16777216

/-- The second result is the lower bound's result of the flat bounds, entry by entry. -/
theorem lower_result (c : Dev nD) : (Pipeline.afterTail₀ cfgs (dats m) 0 (V0 m) [hostOps1] c main_v5 : S16777216.Idx → F .f32)
    = Relax.lowerArr (m ((c : Thread nD τ).loc main_arg1) : S16777216.Idx → F .f32) (m ((c : Thread nD τ).loc main_arg2) : S16777216.Idx → F .f32) := by
  rw [lower_tail, lower_array, lower_in, upper_in]
  exact shapeCast_shapeCast (Relax.lowerArr (m ((c : Thread nD τ).loc main_arg1) : S16777216.Idx → F .f32) (m ((c : Thread nD τ).loc main_arg2) : S16777216.Idx → F .f32))
    Facts₀.shapeCasts_S16777216_S131072x128 Facts₀.shapeCasts_S131072x128_S16777216

/-- The third result is the upper bound's result of the flat bounds, entry by entry. -/
theorem upper_result (c : Dev nD) : (Pipeline.afterTail₀ cfgs (dats m) 0 (V0 m) [hostOps1] c main_v6 : S16777216.Idx → F .f32)
    = Relax.upperArr (m ((c : Thread nD τ).loc main_arg1) : S16777216.Idx → F .f32) (m ((c : Thread nD τ).loc main_arg2) : S16777216.Idx → F .f32) := by
  rw [upper_tail, upper_array, lower_in, upper_in]
  exact shapeCast_shapeCast (Relax.upperArr (m ((c : Thread nD τ).loc main_arg1) : S16777216.Idx → F .f32) (m ((c : Thread nD τ).loc main_arg2) : S16777216.Idx → F .f32))
    Facts₀.shapeCasts_S16777216_S131072x128 Facts₀.shapeCasts_S131072x128_S16777216

/-! ## The run, read -/

/-- Every weakly fair execution of the kernel's program terminates with the three results at the entry's functions of
    the flat arguments, and the arguments unchanged. -/
theorem run : θ_run defs (onTc (τ := τ) (main (F := F))) ⟨m, fun _ => 0, ρ⟩ fun r => ∀ c : Dev nD,
      r.2.mem ((c.tc : Thread nD τ).loc main_v4) = Relax.actArr (m ((c.tc : Thread nD τ).loc main_arg0) : S16777216.Idx → F .f32)
      ∧ r.2.mem ((c.tc : Thread nD τ).loc main_v5) = Relax.lowerArr (m ((c.tc : Thread nD τ).loc main_arg1) : S16777216.Idx → F .f32) (m ((c.tc : Thread nD τ).loc main_arg2) : S16777216.Idx → F .f32)
      ∧ r.2.mem ((c.tc : Thread nD τ).loc main_v6) = Relax.upperArr (m ((c.tc : Thread nD τ).loc main_arg1) : S16777216.Idx → F .f32) (m ((c.tc : Thread nD τ).loc main_arg2) : S16777216.Idx → F .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v4 (Pipeline.mem_restRefs_of main_v4 (by decide) (by decide))).trans (act_result m c),
       ((h c).2 main_v5 (Pipeline.mem_restRefs_of main_v5 (by decide) (by decide))).trans (lower_result m c),
       ((h c).2 main_v6 (Pipeline.mem_restRefs_of main_v6 (by decide) (by decide))).trans (upper_result m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.Arrays

end
-- ==== Proof.ReferenceResults.lean ====
/-
  The reference's three results, read as the entry's functions of the flat arguments.

  The reference computes on the flat arrays of 16777216 entries directly. Its constants `0` and `1` are scalars spread
  over the flat shape, its comparisons, selections, products, differences, quotients and the maximum act index by index,
  and its conversions between equal formats are the identity. So each result, at every index, is the entry's function of
  the arguments at that index: `max x 0`, the lower bound's `λ · l`, and the upper bound's `s · h + b` with the intercept's
  numerator negated and both quotients the host's (`Relax.upperHost`).
-/
import proofs.«106616_j67104569033048_1_alg».proof.Proof.Gen.ReferenceIdeal.Run
import proofs.«106616_j67104569033048_1_alg».proof.Proof.Relax

noncomputable section

namespace Cert.ReferenceIdeal.Results

open Cert.ReferenceIdeal Cert.ReferenceIdeal.Gen Idealize.ShloMosaic

variable {F : FTy → Type} [FloatOps F]

/-- The scalar `0` spread over the flat shape. -/
abbrev zeros : FVec F S16777216 .f32 := broadcastInDim S16777216 ![] bcast_S_S16777216 (constant S_ .f32 0x00000000#32)
/-- The same, the scalar passed through a conversion between equal formats first. -/
abbrev zeros' : FVec F S16777216 .f32 := broadcastInDim S16777216 ![] bcast_S_S16777216 (id (constant S_ .f32 0x00000000#32))
/-- The scalar `1` spread over the flat shape. -/
abbrev ones : FVec F S16777216 .f32 := broadcastInDim S16777216 ![] bcast_S_S16777216 (constant S_ .f32 0x3F800000#32)

/-- The reference's first result is `max x 0` at every index. -/
theorem act_term (x : FVec F S16777216 .f32) : maximumf x zeros = Relax.actArr x := rfl

/-- The reference's second result is the lower bound's result at every index. -/
theorem lower_term (l u : FVec F S16777216 .f32) :
    mulf (select (andi (cmpf .olt l zeros) (cmpf .ogt u zeros)) (id (select (cmpf .ogt (mulf l l) (mulf u u)) zeros ones)) (id (select (cmpf .ole u zeros) zeros ones))) l
      = Relax.lowerArr l u := rfl

/-- The reference's third result is the upper bound's result, in the host's spelling, at every index. -/
theorem upper_term (l u : FVec F S16777216 .f32) :
    addf (mulf (select (andi (cmpf .olt l zeros) (cmpf .ogt u zeros)) (Host.divf u (select (andi (cmpf .olt l zeros) (cmpf .ogt u zeros)) (subf u l) ones)) (id (select (cmpf .ole u zeros) zeros ones))) u) (select (andi (cmpf .olt l zeros) (cmpf .ogt u zeros)) (Host.divf (Host.negf (mulf l u)) (select (andi (cmpf .olt l zeros) (cmpf .ogt u zeros)) (subf u l) ones)) zeros')
      = Relax.upperHostArr l u := rfl

end Cert.ReferenceIdeal.Results

end
-- ==== Proof.lean ====
/-
  The interval relaxation of a rectifier over 16777216 entries: a kernel working block by block against the flat
  formula, equal on the extended reals.

  Both programs take an activation `x` and the bounds `l ≤ h` of a pre-activation interval, entry by entry, and return
  `max x 0`, the lower bound's `λ · l` and the upper bound's `s · h + b` (`Relax.lean` says what `λ`, `s` and `b` are). Every
  result entry depends on the same entry of the arguments only.

  The kernel re-lays each flat argument as 131072 rows of 128, runs a grid of 16 points — point `t` loads rows
  8192·t … 8192·t + 8191 of the three arrays, computes, and writes the same rows of the three results — and re-lays the
  results flat. What a point stores is the entry's function of what it loaded (`BlockResults.lean`); input and output
  blocks sit at the same rows, the 16 blocks cover each result array, and re-laying moves entries without changing
  them, so each flat result is the entry's function of the flat arguments at every index (`KernelArrays.lean`). The
  reference computes the same functions on the flat arrays directly (`ReferenceResults.lean`), except that it negates
  `l · h` where the kernel subtracts it from `0`, and divides by the host's quotient: on the extended reals these agree for
  every value, finite or not (`Relax.upperHost_eq`), so the precondition on the inputs is never used.

  The three frames: the two kernel programs' are the generated ones; the reference's is its run with the results dropped.
  The idealization rewrote no operation, so there is nothing to preserve.
-/
import proofs.«106616_j67104569033048_1_alg».proof.Defs
import proofs.«106616_j67104569033048_1_alg».proof.Proof.Gen.Kernel
import proofs.«106616_j67104569033048_1_alg».proof.Proof.Gen.Kernel.Skeleton
import proofs.«106616_j67104569033048_1_alg».proof.Proof.Gen.Kernel.Launch
import proofs.«106616_j67104569033048_1_alg».proof.Proof.Gen.Kernel.Points
import proofs.«106616_j67104569033048_1_alg».proof.Proof.Gen.Kernel.Frame
import proofs.«106616_j67104569033048_1_alg».proof.Proof.Gen.KernelIdeal
import proofs.«106616_j67104569033048_1_alg».proof.Proof.Gen.KernelIdeal.Skeleton
import proofs.«106616_j67104569033048_1_alg».proof.Proof.Gen.KernelIdeal.Launch
import proofs.«106616_j67104569033048_1_alg».proof.Proof.Gen.KernelIdeal.Points
import proofs.«106616_j67104569033048_1_alg».proof.Proof.Gen.KernelIdeal.Frame
import proofs.«106616_j67104569033048_1_alg».proof.Proof.Gen.ReferenceIdeal
import proofs.«106616_j67104569033048_1_alg».proof.Proof.Gen.Pre_finite_inputs
import proofs.«106616_j67104569033048_1_alg».proof.Proof.Gen.ReferenceIdeal.Run
import proofs.«106616_j67104569033048_1_alg».proof.Proof.Relax
import proofs.«106616_j67104569033048_1_alg».proof.Proof.BlockResults
import proofs.«106616_j67104569033048_1_alg».proof.Proof.KernelArrays
import proofs.«106616_j67104569033048_1_alg».proof.Proof.ReferenceResults
import Idealize.ShloMosaic.Adequacy
import Idealize.ShloMosaic.Init

noncomputable section

namespace Cert.Proof

open Idealize.ShloMosaic Idealize.SL.Sem

/-- The word-level kernel runs and leaves its arguments unchanged. -/
theorem frame_kernel [Cert.Kernel.Facts] [Cert.Pre_finite_inputs.Facts] : Cert.frame_Kernel :=
  fun m ρ _ => Cert.Kernel.Gen.frame m ρ

/-- So does the idealized kernel. -/
theorem frame_kernelIdeal [Cert.KernelIdeal.Facts] [Cert.Pre_finite_inputs.Facts] : Cert.frame_KernelIdeal :=
  fun m ρ _ => Cert.KernelIdeal.Gen.frame m ρ

/-- The reference runs and leaves its arguments unchanged: its run, the results dropped. -/
theorem frame_reference [Cert.ReferenceIdeal.Facts] [Cert.Pre_finite_inputs.Facts] : Cert.frame_ReferenceIdeal :=
  fun m ρ _ => (θ_run Cert.ReferenceIdeal.defs _ _).mono (fun _ h c => (h c).2.2.2)
    (Cert.ReferenceIdeal.Value.run (F := Ideal) m ρ)

/-- On the extended reals, from memories agreeing on the arguments, the kernel and the reference end with equal
    results: both end at the entry's functions of the arguments, the upper bound's two spellings being one function. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, _, _, Cert.KernelIdeal.Arrays.run (F := Ideal) m ρ, ?_⟩
  refine (θ_run Cert.ReferenceIdeal.defs _ _).mono (fun _ h c => ?_) (Cert.ReferenceIdeal.Value.run (F := Ideal) m' ρ')
  obtain ⟨h0, h1, h2, k0, k1, k2⟩ := h c
  obtain ⟨e0, e1, e2⟩ := hagree c
  refine ⟨h0.trans ?_, h1.trans ?_, h2.trans ?_, k0, k1, k2⟩
  · rw [e0]; exact Cert.ReferenceIdeal.Results.act_term _
  · rw [e1, e2]; exact Cert.ReferenceIdeal.Results.lower_term _ _
  · rw [e1, e2]; exact (Cert.ReferenceIdeal.Results.upper_term _ _).trans (Cert.Relax.upperHostArr_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
